-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x512 : Shape := ⟨2, ![8192, 512]⟩
abbrev S2048x256 : Shape := ⟨2, ![2048, 256]⟩
abbrev S256 : Shape := ⟨1, ![256]⟩
abbrev S512x256 : Shape := ⟨2, ![512, 256]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x256 .f32) (main_arg5 : FVec F S512x256 .f32) (main_arg6 : FVec F S2048 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S8192x2048 .f32) (main_arg1 : FVec F S8192x512 .f32) (main_arg2 : FVec F S2048x256 .f32) (main_arg3 : FVec F S256 .f32) (main_arg4 : FVec F S2048x256 .f32) (main_arg5 : FVec F S512x256 .f32) (main_arg6 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S8192x2048 : Shape := ⟨2, ![8192, 2048]⟩
abbrev S8192x512 : Shape := ⟨2, ![8192, 512]⟩
abbrev S2048x256 : Shape := ⟨2, ![2048, 256]⟩
abbrev S256 : Shape := ⟨1, ![256]⟩
abbrev S512x256 : Shape := ⟨2, ![512, 256]⟩
abbrev S2048 : Shape := ⟨1, ![2048]⟩
abbrev S1x256 : Shape := ⟨2, ![1, 256]⟩
abbrev S1x2048 : Shape := ⟨2, ![1, 2048]⟩
abbrev S256x2048 : Shape := ⟨2, ![256, 2048]⟩
abbrev S1024x2048 : Shape := ⟨2, ![1024, 2048]⟩
abbrev S1024x512 : Shape := ⟨2, ![1024, 512]⟩
abbrev S1024x256 : Shape := ⟨2, ![1024, 256]⟩

abbrev nBuf : Space → Nat
  | .hbm => 11
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S2048x256, .f32⟩
  | .hbm, ⟨3, _⟩ => ⟨S256, .f32⟩
  | .hbm, ⟨4, _⟩ => ⟨S2048x256, .f32⟩
  | .hbm, ⟨5, _⟩ => ⟨S512x256, .f32⟩
  | .hbm, ⟨6, _⟩ => ⟨S2048, .f32⟩
  | .hbm, ⟨7, _⟩ => ⟨S1x256, .f32⟩
  | .hbm, ⟨8, _⟩ => ⟨S1x2048, .f32⟩
  | .hbm, ⟨9, _⟩ => ⟨S256x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x512, .f32⟩
  | .local _ .vmem, ⟨3, _⟩ => ⟨S1024x512, .f32⟩
  | .local _ .vmem, ⟨4, _⟩ => ⟨S2048x256, .f32⟩
  | .local _ .vmem, ⟨5, _⟩ => ⟨S1x256, .f32⟩
  | .local _ .vmem, ⟨6, _⟩ => ⟨S256x2048, .f32⟩
  | .local _ .vmem, ⟨7, _⟩ => ⟨S512x256, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256_S1x256 : S256.ShapeCasts S1x256
  shapeCasts_S2048_S1x2048 : S2048.ShapeCasts S1x2048
  transposes_S2048x256_S256x2048_1_0 : S2048x256.Transposes [1, 0] S256x2048
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  inb_S2048x256_S2048x256_0_0 : ∀ a, (![0, 0] : Fin 2 → Nat) a + S2048x256.size a ≤ S2048x256.size a
  h_S2048x256 : 0 < S2048x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S512x256_S1024x256_1_0_0_1_n_n_wf : DotDims.WF S1024x512 S512x256 S1024x256 [1] [0] [0] [1] [] []
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .f32 = 32 ∨ (Rect.block (s := S2048x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S256x2048.size a
  hwx0_4 : ∀ i : grid0.Coords, EltTy.bits .f32 = 32 ∨ (Rect.block (s := S256x2048) S256x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S8192x2048.size a
  hwx0_7 : ∀ i : grid0.Coords, EltTy.bits .f32 = 32 ∨ (Rect.block (s := S8192x2048) S1024x2048.size (cc0_transform_7 i) (hinb0_7 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x512 : Shape := ⟨2, ![8192, 512]⟩
abbrev S2048x256 : Shape := ⟨2, ![2048, 256]⟩
abbrev S256 : Shape := ⟨1, ![256]⟩
abbrev S512x256 : Shape := ⟨2, ![512, 256]⟩
abbrev S2048 : Shape := ⟨1, ![2048]⟩
abbrev S8192x256 : Shape := ⟨2, ![8192, 256]⟩
abbrev S1x256 : Shape := ⟨2, ![1, 256]⟩
abbrev S256x2048 : Shape := ⟨2, ![256, 2048]⟩
abbrev S1x2048 : Shape := ⟨2, ![1, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S2048x256, .f32⟩
  | .hbm, ⟨3, _⟩ => ⟨S256, .f32⟩
  | .hbm, ⟨4, _⟩ => ⟨S2048x256, .f32⟩
  | .hbm, ⟨5, _⟩ => ⟨S512x256, .f32⟩
  | .hbm, ⟨6, _⟩ => ⟨S2048, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S256x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S2048x256_S256x2048_1_0 : S2048x256.Transposes [1, 0] S256x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x512_S512x256_S8192x256_1_0_0_1_n_n_wf : DotDims.WF S8192x512 S512x256 S8192x256 [1] [0] [0] [1] [] []
  dot_S8192x2048_S2048x256_S8192x256_1_0_0_1_n_n_wf : DotDims.WF S8192x2048 S2048x256 S8192x256 [1] [0] [0] [1] [] []
  dot_S8192x256_S256x2048_S8192x2048_1_0_0_1_n_n_wf : DotDims.WF S8192x256 S256x2048 S8192x2048 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf
def dot_S8192x256_S256x2048_S8192x2048_1_0_0_1_n_n : DotDims S8192x256 S256x2048 S8192x2048 where
  lhsContracting := [1]
  rhsContracting := [0]
  lhsNonContracting := [0]
  rhsNonContracting := [1]
  lhsBatch := []
  rhsBatch := []
  wf := dot_S8192x256_S256x2048_S8192x2048_1_0_0_1_n_n_wf

class Facts : Prop extends Facts₀ where

variable [Facts]
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«181702_j73426760892514_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.Spec.lean ====
/-
  The function both programs compute, entry by entry, on the extended reals.

  A batch of 8192 examples, each a row of 2048 features with a row of 512 context features, goes through a dense
  layer whose weight matrix is given in low-rank form: for example p the singular values are modulated by the
  context, s'(p, k) = s(k) + sum_j context(p, j) * w(j, k), the features are projected onto the 256 left factors,
  low(p, k) = (sum_j data(p, j) * u(j, k)) * s'(p, k), and the result is expanded by the right factors, the bias is
  added twice and negative entries are cut off:
      out(p, q) = max (sum_k low(p, k) * v(q, k) + 2 * bias(q)) 0.
  One program adds the bias as "bias, then bias again", the other as "twice the bias"; on the extended reals the two
  agree for every value, infinite ones included, because addition there is associative and b + b = 2 * b.
-/
import Idealize.ShloMosaic.PureOps.Ideal
import Idealize.ShloMosaic.Lib.ValueIdx

noncomputable section

namespace LowRankDense

open Idealize.ShloMosaic Idealize.ShloMosaic.ValueIdx

/-- Entry (p, k) of the projected features scaled by the context-modulated singular values. -/
def lowAt (data : (⟨2, ![8192, 2048]⟩ : Shape).Idx → EReal) (ctx : (⟨2, ![8192, 512]⟩ : Shape).Idx → EReal)
    (u : (⟨2, ![2048, 256]⟩ : Shape).Idx → EReal) (s : (⟨1, ![256]⟩ : Shape).Idx → EReal)
    (w : (⟨2, ![512, 256]⟩ : Shape).Idx → EReal) (p : Fin 8192) (k : Fin 256) : EReal :=
  (∑ j : Fin 2048, data (ix2 p j) * u (ix2 j k)) * (s (ix1 k) + ∑ j : Fin 512, ctx (ix2 p j) * w (ix2 j k))

/-- Entry (p, q) of the layer's output. -/
def outAt (data : (⟨2, ![8192, 2048]⟩ : Shape).Idx → EReal) (ctx : (⟨2, ![8192, 512]⟩ : Shape).Idx → EReal)
    (u : (⟨2, ![2048, 256]⟩ : Shape).Idx → EReal) (s : (⟨1, ![256]⟩ : Shape).Idx → EReal)
    (v : (⟨2, ![2048, 256]⟩ : Shape).Idx → EReal) (w : (⟨2, ![512, 256]⟩ : Shape).Idx → EReal)
    (bias : (⟨1, ![2048]⟩ : Shape).Idx → EReal) (p : Fin 8192) (q : Fin 2048) : EReal :=
  max ((∑ k : Fin 256, lowAt data ctx u s w p k * v (ix2 q k)) + 2 * bias (ix1 q)) 0

/-- The layer's output as one function of the seven argument arrays. -/
def G (data : (⟨2, ![8192, 2048]⟩ : Shape).Idx → EReal) (ctx : (⟨2, ![8192, 512]⟩ : Shape).Idx → EReal)
    (u : (⟨2, ![2048, 256]⟩ : Shape).Idx → EReal) (s : (⟨1, ![256]⟩ : Shape).Idx → EReal)
    (v : (⟨2, ![2048, 256]⟩ : Shape).Idx → EReal) (w : (⟨2, ![512, 256]⟩ : Shape).Idx → EReal)
    (bias : (⟨1, ![2048]⟩ : Shape).Idx → EReal) : (⟨2, ![8192, 2048]⟩ : Shape).Idx → EReal :=
  fun i => outAt data ctx u s v w bias (i 0) (i 1)

/-- Twice an extended real is the number added to itself, at the two infinities as well. -/
theorem two_mul_eq_add_self (b : EReal) : (2 : EReal) * b = b + b := by
  induction b using EReal.rec with
  | bot => rw [EReal.mul_bot_of_pos (by norm_num)]; rfl
  | coe r => rw [show (2 : EReal) = ((2 : ℝ) : EReal) from rfl, ← EReal.coe_mul, ← EReal.coe_add, two_mul]
  | top => rw [EReal.mul_top_of_pos (by norm_num)]; rfl

/-- Adding a number twice is adding its double. -/
theorem add_add_self (x b : EReal) : x + b + b = x + 2 * b := by
  rw [two_mul_eq_add_self, add_assoc]

/-- The single-precision word 0x40000000 denotes the number two. -/
theorem ofBits_two : Ideal.ofBits .f32 0x40000000#32 = (2 : EReal) := by
  simp [Ideal.ofBits, Ideal.ieee, -EReal.coe_mul]; norm_num; rfl

end LowRankDense

end
-- ==== Proof.BodyValue.lean ====
/-
  What one grid point's body stores, read at an entry.

  The body loads a block of 1024 rows of data and of context and the whole small matrices, forms context·w, adds the
  row of singular values broadcast down the rows, multiplies entry by entry by data·u, multiplies by the transposed
  right factors, adds twice the bias row and takes the maximum with zero. On the extended reals each matrix product
  into a zero accumulator is the plain sum over the contracted axis, so the stored value at (p, q) is
      max (sum_k ((sum_j x0(p, j) x2(j, k)) * (x3(0, k) + sum_j x1(p, j) x5(j, k))) * x4(k, q) + 2 * x6(0, q)) 0.
-/
import proofs.«181702_j73426760892514_2_alg».proof.Proof.Gen.KernelIdeal.Skeleton
import proofs.«181702_j73426760892514_2_alg».proof.Proof.LibDotRecord
import proofs.«181702_j73426760892514_2_alg».proof.Proof.Spec
import Idealize.ShloMosaic.Lib.Pipeline.Value

noncomputable section

namespace LowRankDense.Body

open Cert.KernelIdeal Cert.KernelIdeal.Gen Idealize.ShloMosaic Idealize.ShloMosaic.ValueIdx

/-- The body's stored value at entry (p, q) of the block, as sums over the loaded blocks. -/
theorem pay_apply (x0 : FVec Ideal S1024x2048 .f32) (x1 : FVec Ideal S1024x512 .f32) (x2 : FVec Ideal S2048x256 .f32)
    (x4 : FVec Ideal S256x2048 .f32) (x5 : FVec Ideal S512x256 .f32) (x3 : FVec Ideal S1x256 .f32)
    (x6 : FVec Ideal S1x2048 .f32) (p : Fin 1024) (q : Fin 2048) :
    k0_pay1 (F := Ideal) x0 x1 x2 x4 x5 x3 x6 (ix2 p q)
      = max ((∑ k : Fin 256, ((∑ j : Fin 2048, x0 (ix2 p j) * x2 (ix2 j k))
            * (x3 (ix2 (0 : Fin 1) k) + ∑ j : Fin 512, x1 (ix2 p j) * x5 (ix2 j k))) * x4 (ix2 k q))
          + 2 * x6 (ix2 (0 : Fin 1) q)) 0 := by
  unfold k0_pay1
  rw [maximumf_apply, addf_apply, broadcast_apply]
  refine congrArg₂ max (congrArg₂ (· + ·) ?_ ?_) Ideal.ofBits_zero_f32
  · refine (DotRecord.matmul_zero_apply _ rfl rfl rfl rfl rfl rfl _ _ _ p q).trans ?_
    refine Finset.sum_congr rfl fun k _ => ?_
    rw [mulf_apply, addf_apply]
    refine congrArg₂ (· * ·) (congrArg₂ (· * ·) ?_ (congrArg₂ (· + ·) ?_ ?_)) (congrFun (shapeCast_self x4 _) _)
    · exact DotRecord.matmul_zero_apply _ rfl rfl rfl rfl rfl rfl _ _ _ p k
    · rw [shapeCast_self]
      exact DotRecord.broadcastTo_1b_ab_apply _ _ p k
    · exact DotRecord.matmul_zero_apply _ rfl rfl rfl rfl rfl rfl _ _ _ p k
  · refine (DotRecord.broadcastTo_1b_ab_apply _ _ p q).trans ?_
    rw [mulf_apply, broadcast_apply, shapeCast_self]
    exact congrArg (· * x6 (ix2 (0 : Fin 1) q)) ofBits_two

end LowRankDense.Body

end
-- ==== Proof.KernelArray.lean ====
/-
  The kernel's result array after the run is the layer's output function of the argument arrays.

  The grid has eight points; point t stages rows 1024 t … 1024 t + 1023 of data and of context, the whole of the small
  matrices, and writes rows 1024 t … 1024 t + 1023 of the result. Before the region the host turns the singular values
  and the bias into one-row matrices and transposes the right factors, so the entries the body reads are entries of
  the arguments: row (1024 t + p) of data and context, s(k) for the one-row matrix at (0, k), v(q, k) for the
  transposed factors at (k, q), bias(q) at (0, q). Hence point t writes back block t of the output function, the eight
  blocks cover the result array, and the array ends holding that function.
-/
import proofs.«181702_j73426760892514_2_alg».proof.Proof.Gen.KernelIdeal.Value
import proofs.«181702_j73426760892514_2_alg».proof.Proof.BodyValue
import Idealize.ShloMosaic.Lib.ValueLayout

noncomputable section

namespace LowRankDense.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer's output function of the seven argument arrays as launched on core c. -/
abbrev result (c : Dev nD) : S8192x2048.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem zeros : (![0, 0] : Fin 2 → Nat) = fun _ => 0 := funext fun a => by fin_cases a <;> rfl

/-- The block index maps over the eight grid points: data, context and the result move with the point along the rows;
    every other operand is one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## What the region finds in the three arrays the host prepared -/

/-- The singular values as a one-row matrix, at (0, k): s(k). -/
theorem srow_entry (c : Dev nD) (k : Fin 256) :
    (V m c main_v0 : S1x256.Idx → EReal) (ix2 (0 : Fin 1) k) = (m ((c : Thread nD τ).loc main_arg3) : S256.Idx → EReal) (ix1 k) := by
  have e : (V m c main_v0 : S1x256.Idx → EReal)
      = shapeCast S1x256 (m ((c : Thread nD τ).loc main_arg3) : S256.Idx → EReal) Facts₀.shapeCasts_S256_S1x256 := by
    dsimp only [Gen.V, Gen.hostOps0]; after_results <;> rfl
  rw [e]
  exact shapeCast_a_1a_apply _ _ 0 k

/-- The bias as a one-row matrix, at (0, q): bias(q). -/
theorem biasrow_entry (c : Dev nD) (q : Fin 2048) :
    (V m c main_v1 : S1x2048.Idx → EReal) (ix2 (0 : Fin 1) q) = (m ((c : Thread nD τ).loc main_arg6) : S2048.Idx → EReal) (ix1 q) := by
  have e : (V m c main_v1 : S1x2048.Idx → EReal)
      = shapeCast S1x2048 (m ((c : Thread nD τ).loc main_arg6) : S2048.Idx → EReal) Facts₀.shapeCasts_S2048_S1x2048 := by
    dsimp only [Gen.V, Gen.hostOps0]; after_results <;> rfl
  rw [e]
  exact shapeCast_a_1a_apply _ _ 0 q

/-- The transposed right factors at (k, q): v(q, k). -/
theorem vT_entry (c : Dev nD) (k : Fin 256) (q : Fin 2048) :
    (V m c main_v2 : S256x2048.Idx → EReal) (ix2 k q) = (m ((c : Thread nD τ).loc main_arg4) : S2048x256.Idx → EReal) (ix2 q k) := by
  have e : (V m c main_v2 : S256x2048.Idx → EReal)
      = transpose S256x2048 [1, 0] (m ((c : Thread nD τ).loc main_arg4) : S2048x256.Idx → EReal) Facts₀.transposes_S2048x256_S256x2048_1_0 := by
    dsimp only [Gen.V, Gen.hostOps0]; after_results <;> rfl
  rw [e]
  exact transpose_ix2_apply _ _ k q

/-! ## The blocks a grid point stages, entry by entry -/

/-- Row p of the point's block of data is row 1024 t + p of data. -/
theorem data_block (c : Dev nD) (t : Fin cfg0.N) (p : Fin 1024) (j : Fin 2048) (P : Fin 8192) (hP : P.val = t.val * 1024 + p.val) :
    (iblk m c 0 t : Vec Ideal S1024x2048 .f32) (ix2 p j) = (m ((c : Thread nD τ).loc main_arg0) : S8192x2048.Idx → EReal) (ix2 P j) := by
  obtain ⟨e0, e1, -⟩ := block_index t
  rw [← V_main_arg0 m c]
  show V m c main_arg0 (((cfg0.win 0).blk t).view.emb (ix2 p j)) = V m c main_arg0 (ix2 P j)
  refine congrArg (V m c main_arg0) (funext fun a => Fin.ext ?_)
  match a with
  | ⟨0, _⟩ => show win0_0.index t (0 : Fin 2) * 1024 + 1 * p.val = P.val; omega
  | ⟨1, _⟩ => show win0_0.index t (1 : Fin 2) * 2048 + 1 * j.val = j.val; omega

/-- Row p of the point's block of context is row 1024 t + p of context. -/
theorem ctx_block (c : Dev nD) (t : Fin cfg0.N) (p : Fin 1024) (j : Fin 512) (P : Fin 8192) (hP : P.val = t.val * 1024 + p.val) :
    (iblk m c 1 t : Vec Ideal S1024x512 .f32) (ix2 p j) = (m ((c : Thread nD τ).loc main_arg1) : S8192x512.Idx → EReal) (ix2 P j) := by
  obtain ⟨-, -, e0, e1, -⟩ := block_index t
  rw [← V_main_arg1 m c]
  show V m c main_arg1 (((cfg0.win 1).blk t).view.emb (ix2 p j)) = V m c main_arg1 (ix2 P j)
  refine congrArg (V m c main_arg1) (funext fun a => Fin.ext ?_)
  match a with
  | ⟨0, _⟩ => show win0_1.index t (0 : Fin 2) * 1024 + 1 * p.val = P.val; omega
  | ⟨1, _⟩ => show win0_1.index t (1 : Fin 2) * 512 + 1 * j.val = j.val; omega

/-- The left factors are staged whole. -/
theorem u_block (c : Dev nD) (t : Fin cfg0.N) (j : Fin 2048) (k : Fin 256) :
    (iblk m c 2 t : Vec Ideal S2048x256 .f32) (ix2 j k) = (m ((c : Thread nD τ).loc main_arg2) : S2048x256.Idx → EReal) (ix2 j k) := by
  obtain ⟨-, -, -, -, e0, e1, -⟩ := block_index t
  rw [← V_main_arg2 m c]
  show V m c main_arg2 (((cfg0.win 2).blk t).view.emb (ix2 j k)) = V m c main_arg2 (ix2 j k)
  refine congrArg (V m c main_arg2) (funext fun a => Fin.ext ?_)
  match a with
  | ⟨0, _⟩ => show win0_2.index t (0 : Fin 2) * 2048 + 1 * j.val = j.val; omega
  | ⟨1, _⟩ => show win0_2.index t (1 : Fin 2) * 256 + 1 * k.val = k.val; omega

/-- The one-row matrix of singular values is staged whole: its entry (0, k) is s(k). -/
theorem s_block (c : Dev nD) (t : Fin cfg0.N) (k : Fin 256) :
    (iblk m c 3 t : Vec Ideal S1x256 .f32) (ix2 (0 : Fin 1) k) = (m ((c : Thread nD τ).loc main_arg3) : S256.Idx → EReal) (ix1 k) := by
  obtain ⟨-, -, -, -, -, -, e0, e1, -⟩ := block_index t
  rw [← srow_entry m c k]
  show V m c main_v0 (((cfg0.win 3).blk t).view.emb (ix2 (0 : Fin 1) k)) = V m c main_v0 (ix2 (0 : Fin 1) k)
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 256 + 1 * k.val = k.val; omega

/-- The transposed right factors are staged whole: their entry (k, q) is v(q, k). -/
theorem vT_block (c : Dev nD) (t : Fin cfg0.N) (k : Fin 256) (q : Fin 2048) :
    (iblk m c 4 t : Vec Ideal S256x2048 .f32) (ix2 k q) = (m ((c : Thread nD τ).loc main_arg4) : S2048x256.Idx → EReal) (ix2 q k) := by
  obtain ⟨-, -, -, -, -, -, -, -, e0, e1, -⟩ := block_index t
  rw [← vT_entry m c k q]
  show V m c main_v2 (((cfg0.win 4).blk t).view.emb (ix2 k q)) = V m c main_v2 (ix2 k q)
  refine congrArg (V m c main_v2) (funext fun a => Fin.ext ?_)
  match a with
  | ⟨0, _⟩ => show win0_4.index t (0 : Fin 2) * 256 + 1 * k.val = k.val; omega
  | ⟨1, _⟩ => show win0_4.index t (1 : Fin 2) * 2048 + 1 * q.val = q.val; omega

/-- The context weights are staged whole. -/
theorem w_block (c : Dev nD) (t : Fin cfg0.N) (j : Fin 512) (k : Fin 256) :
    (iblk m c 5 t : Vec Ideal S512x256 .f32) (ix2 j k) = (m ((c : Thread nD τ).loc main_arg5) : S512x256.Idx → EReal) (ix2 j k) := by
  obtain ⟨-, -, -, -, -, -, -, -, -, -, e0, e1, -⟩ := block_index t
  rw [← V_main_arg5 m c]
  show V m c main_arg5 (((cfg0.win 5).blk t).view.emb (ix2 j k)) = V m c main_arg5 (ix2 j k)
  refine congrArg (V m c main_arg5) (funext fun a => Fin.ext ?_)
  match a with
  | ⟨0, _⟩ => show win0_5.index t (0 : Fin 2) * 512 + 1 * j.val = j.val; omega
  | ⟨1, _⟩ => show win0_5.index t (1 : Fin 2) * 256 + 1 * k.val = k.val; omega

/-- The one-row matrix of the bias is staged whole: its entry (0, q) is bias(q). -/
theorem bias_block (c : Dev nD) (t : Fin cfg0.N) (q : Fin 2048) :
    (iblk m c 6 t : Vec Ideal S1x2048 .f32) (ix2 (0 : Fin 1) q) = (m ((c : Thread nD τ).loc main_arg6) : S2048.Idx → EReal) (ix1 q) := by
  obtain ⟨-, -, -, -, -, -, -, -, -, -, -, -, e0, e1, -⟩ := block_index t
  rw [← biasrow_entry m c q]
  show V m c main_v1 (((cfg0.win 6).blk t).view.emb (ix2 (0 : Fin 1) q)) = V m c main_v1 (ix2 (0 : Fin 1) q)
  refine congrArg (V m c main_v1) (funext fun a => Fin.ext ?_)
  match a with
  | ⟨0, _⟩ => show win0_6.index t (0 : Fin 2) * 1 + 1 * 0 = 0; omega
  | ⟨1, _⟩ => show win0_6.index t (1 : Fin 2) * 2048 + 1 * q.val = q.val; omega

/-! ## One grid point's stored value is a block of the output function -/

/-- What the body stores at entry (p, q) at point t is the layer's output at row 1024 t + p, column q. -/
theorem point_value (c : Dev nD) (t : Fin cfg0.N) (p : Fin 1024) (q : Fin 2048) (P : Fin 8192) (hP : P.val = t.val * 1024 + p.val) :
    k0_pay1 (F := Ideal) (iblk m c 0 t) (iblk m c 1 t) (iblk m c 2 t) (iblk m c 4 t) (iblk m c 5 t) (iblk m c 3 t) (iblk m c 6 t) (ix2 p q)
      = result m c (ix2 P q) := by
  refine (Body.pay_apply (iblk m c 0 t) (iblk m c 1 t) (iblk m c 2 t) (iblk m c 4 t) (iblk m c 5 t) (iblk m c 3 t) (iblk m c 6 t) p q).trans ?_
  show _ = max ((∑ k : Fin 256, lowAt _ _ _ _ _ P k * _) + 2 * _) 0
  refine congrArg₂ max (congrArg₂ (· + ·) (Finset.sum_congr rfl fun k _ => ?_) ?_) rfl
  · refine congrArg₂ (· * ·) (congrArg₂ (· * ·) (Finset.sum_congr rfl fun j _ => ?_)
      (congrArg₂ (· + ·) (s_block m c t k) (Finset.sum_congr rfl fun j _ => ?_))) (vT_block m c t k q)
    · exact congrArg₂ (· * ·) (data_block m c t p j P hP) (u_block m c t j k)
    · exact congrArg₂ (· * ·) (ctx_block m c t p j P hP) (w_block m c t j k)
  · exact congrArg (2 * ·) (bias_block m c t q)

/-- What point t writes back is block t of the output function. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero zeros]
  simp only [View.ld_unit_zero (S := S1024x2048) zeros, View.ld_unit_zero (S := S1024x512) zeros,
    View.ld_unit_zero (S := S2048x256) zeros, View.ld_unit_zero (S := S256x2048) zeros,
    View.ld_unit_zero (S := S512x256) zeros, View.ld_unit_zero (S := S1x256) zeros, View.ld_unit_zero (S := S1x2048) zeros]
  refine funext fun (y : S1024x2048.Idx) => ?_
  obtain ⟨p, q, rfl⟩ : ∃ (p : Fin 1024) (q : Fin 2048), y = ix2 p q := ⟨y 0, y 1, eq_ix2 y⟩
  obtain ⟨-, -, -, -, -, -, -, -, -, -, -, -, -, -, e0, e1⟩ := block_index t
  have hN : cfg0.N = 8 := N_0
  have ht : t.val < 8 := hN ▸ t.isLt
  have hemb : ((cfg0.win 7).blk t).view.emb (ix2 p q) = ix2 (⟨t.val * 1024 + p.val, by omega⟩ : Fin 8192) q :=
    funext fun a => Fin.ext (by
      match a with
      | ⟨0, _⟩ => show win0_7.index t (0 : Fin 2) * 1024 + 1 * p.val = t.val * 1024 + p.val; omega
      | ⟨1, _⟩ => show win0_7.index t (1 : Fin 2) * 2048 + 1 * q.val = q.val; omega)
  show k0_pay1 (F := Ideal) (iblk m c 0 t) (iblk m c 1 t) (iblk m c 2 t) (iblk m c 4 t) (iblk m c 5 t) (iblk m c 3 t) (iblk m c 6 t) (ix2 p q)
      = result m c (((cfg0.win 7).blk t).view.emb (ix2 p q))
  rw [hemb]
  exact point_value m c t p q _ rfl

/-! ## The eight blocks cover the result array -/

/-- An index of the result array is in point t's block iff each coordinate is in the block's range. -/
theorem mem_block (t : Fin cfg0.N) (i : S8192x2048.Idx) :
    i ∈ ((cfg0.win 7).blk t).view.set ↔ ∀ a : Fin 2, win0_7.index t a * S1024x2048.size a ≤ (i a).val ∧ (i a).val < win0_7.index t a * S1024x2048.size a + S1024x2048.size a := by
  show i ∈ ((View.whole main_v3).slice (win0_7.rect t)).set ↔ _
  rw [View.set_slice_whole, Rect.mem_set_unit]
  exact Iff.rfl

/-- Row r of the result lies in the block of point r / 1024. -/
theorem covered (i : S8192x2048.Idx) :
    ∃ t : Fin cfg0.N, (cfg0.win 7).flush t = true ∧ i ∈ ((cfg0.win 7).blk t).view.set := by
  have hi0 : (i 0).val < 8192 := (i 0).isLt
  have hi1 : (i 1).val < 2048 := (i 1).isLt
  have hN : cfg0.N = 8 := N_0
  have ht : (i 0).val / 1024 < cfg0.N := by rw [hN]; omega
  obtain ⟨-, -, -, -, -, -, -, -, -, -, -, -, -, -, e0, e1⟩ := block_index ⟨(i 0).val / 1024, ht⟩
  refine ⟨⟨(i 0).val / 1024, ht⟩, flush0_7 _, ?_⟩
  rw [mem_block]
  intro a
  match a with
  | ⟨0, _⟩ =>
    show win0_7.index ⟨(i 0).val / 1024, ht⟩ (0 : Fin 2) * 1024 ≤ (i 0).val ∧ (i 0).val < win0_7.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_7.index ⟨(i 0).val / 1024, ht⟩ (1 : Fin 2) * 2048 ≤ (i 1).val ∧ (i 1).val < win0_7.index ⟨(i 0).val / 1024, ht⟩ (1 : Fin 2) * 2048 + 2048
    rw [e1]; omega

/-- The result array after the run is the layer's output function of the arguments. -/
theorem final (c : Dev nD) : (dats m 0 c).arrAt 7 cfg0.N = result m c :=
  (dats m 0 c).arrAt_eq_of_cover 7 (result m c) (fun t _ => flushed_eq m c t) covered

/-- The kernel's run: it ends with the result array at the output function and the arguments as launched. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end LowRankDense.Kernel

end
-- ==== Proof.RefResult.lean ====
/-
  The reference program's result is the layer's output function.

  The reference computes, on the host, context·w, adds the singular values broadcast down the rows, multiplies by
  data·u entry by entry, multiplies the result by the transposed right factors, adds the bias row twice and takes the
  maximum with zero. Read at an entry (p, q) each operation is a sum over the contracted axis or an entrywise
  operation on the operands at the matching entries; the two bias additions become one addition of twice the bias.
-/
import proofs.«181702_j73426760892514_2_alg».proof.Proof.Gen.ReferenceIdeal.Read
import proofs.«181702_j73426760892514_2_alg».proof.Proof.Spec

noncomputable section

namespace LowRankDense.Ref

open Cert.ReferenceIdeal Cert.ReferenceIdeal.Read Idealize.ShloMosaic Idealize.ShloMosaic.ValueIdx

/-- The product context·w at (p, k): the sum over the 512 context features. -/
theorem ctxw_apply (x1 : S8192x512.Idx → EReal) (x5 : S512x256.Idx → EReal) (p : Fin 8192) (k : Fin 256) :
    val_main_v0 (F := Ideal) x1 x5 (ix2 p k) = ∑ j : Fin 512, x1 (ix2 p j) * x5 (ix2 j k) := by
  rw [val_main_v0_apply]
  refine Finset.sum_congr rfl fun j _ => ?_
  congr 1 <;> exact congrArg _ (funext fun a => Fin.ext (by match a with | ⟨0, _⟩ => rfl | ⟨1, _⟩ => rfl))

/-- The singular values repeated down the rows, at (p, k): s(k). -/
theorem srow_apply (x3 : S256.Idx → EReal) (p : Fin 8192) (k : Fin 256) :
    val_main_v2 (F := Ideal) x3 (ix2 p k) = x3 (ix1 k) := by
  rw [val_main_v2_apply, val_main_v1_apply]
  exact congrArg x3 (funext fun a => Fin.ext (by match a with | ⟨0, _⟩ => rfl))

/-- The product data·u at (p, k): the sum over the 2048 input features. -/
theorem datau_apply (x0 : S8192x2048.Idx → EReal) (x2 : S2048x256.Idx → EReal) (p : Fin 8192) (k : Fin 256) :
    val_main_v4 (F := Ideal) x0 x2 (ix2 p k) = ∑ j : Fin 2048, x0 (ix2 p j) * x2 (ix2 j k) := by
  rw [val_main_v4_apply]
  refine Finset.sum_congr rfl fun j _ => ?_
  congr 1 <;> exact congrArg _ (funext fun a => Fin.ext (by match a with | ⟨0, _⟩ => rfl | ⟨1, _⟩ => rfl))

/-- The scaled projection at (p, k). -/
theorem low_apply (x0 : S8192x2048.Idx → EReal) (x1 : S8192x512.Idx → EReal) (x2 : S2048x256.Idx → EReal)
    (x3 : S256.Idx → EReal) (x5 : S512x256.Idx → EReal) (p : Fin 8192) (k : Fin 256) :
    val_main_v5 (F := Ideal) x0 x1 x2 x3 x5 (ix2 p k) = lowAt x0 x1 x2 x3 x5 p k := by
  rw [val_main_v5_apply, val_main_v3_apply, datau_apply, srow_apply, ctxw_apply]
  rfl

/-- The transposed right factors at (k, q): v(q, k). -/
theorem vT_apply (x4 : S2048x256.Idx → EReal) (k : Fin 256) (q : Fin 2048) :
    val_main_v6 (F := Ideal) x4 (ix2 k q) = x4 (ix2 q k) := by
  rw [val_main_v6_apply]
  exact congrArg x4 (funext fun a => Fin.ext (by match a with | ⟨0, _⟩ => rfl | ⟨1, _⟩ => rfl))

/-- The expansion by the right factors at an entry: the sum over the 256 ranks. -/
theorem expand_apply (x0 : S8192x2048.Idx → EReal) (x1 : S8192x512.Idx → EReal) (x2 : S2048x256.Idx → EReal)
    (x3 : S256.Idx → EReal) (x4 : S2048x256.Idx → EReal) (x5 : S512x256.Idx → EReal) (p : Fin 8192) (q : Fin 2048) :
    val_main_v7 (F := Ideal) x0 x1 x2 x3 x4 x5 (ix2 p q) = ∑ k : Fin 256, lowAt x0 x1 x2 x3 x5 p k * x4 (ix2 q k) := by
  rw [val_main_v7_apply]
  refine Finset.sum_congr rfl fun k _ => ?_
  have el : lidx_main_v7 (ix2 p q) k = ix2 p k := funext fun a => Fin.ext (by match a with | ⟨0, _⟩ => rfl | ⟨1, _⟩ => rfl)
  have er : ridx_main_v7 (ix2 p q) k = ix2 k q := funext fun a => Fin.ext (by match a with | ⟨0, _⟩ => rfl | ⟨1, _⟩ => rfl)
  rw [el, er, low_apply, vT_apply]

/-- The bias repeated down the rows, at an entry: bias(q) (the first of the two additions). -/
theorem bias_apply (x6 : S2048.Idx → EReal) (p : Fin 8192) (q : Fin 2048) :
    val_main_v9 (F := Ideal) x6 (ix2 p q) = x6 (ix1 q) := by
  rw [val_main_v9_apply, val_main_v8_apply]
  exact congrArg x6 (funext fun a => Fin.ext (by match a with | ⟨0, _⟩ => rfl))

/-- The same for the second addition. -/
theorem bias_apply' (x6 : S2048.Idx → EReal) (p : Fin 8192) (q : Fin 2048) :
    val_main_v12 (F := Ideal) x6 (ix2 p q) = x6 (ix1 q) := by
  rw [val_main_v12_apply, val_main_v11_apply]
  exact congrArg x6 (funext fun a => Fin.ext (by match a with | ⟨0, _⟩ => rfl))

/-- The cut-off level is the number zero at every entry. -/
theorem zero_apply (i : S8192x2048.Idx) : val_main_call0_v0 (F := Ideal) i = 0 := by
  rw [val_main_call0_v0_apply, val_main_call0_cst_apply]
  exact Ideal.ofBits_zero_f32

/-- The reference's result array is the layer's output function of its seven arguments. -/
theorem result_eq (x0 : S8192x2048.Idx → EReal) (x1 : S8192x512.Idx → EReal) (x2 : S2048x256.Idx → EReal)
    (x3 : S256.Idx → EReal) (x4 : S2048x256.Idx → EReal) (x5 : S512x256.Idx → EReal) (x6 : S2048.Idx → EReal) :
    val_main_v14 (F := Ideal) x0 x1 x2 x3 x4 x5 x6 = G x0 x1 x2 x3 x4 x5 x6 := by
  funext i
  obtain ⟨p, q, rfl⟩ : ∃ (p : Fin 8192) (q : Fin 2048), i = ix2 p q := ⟨i 0, i 1, eq_ix2 i⟩
  rw [val_main_v14_apply, val_main_v13_apply, val_main_v10_apply, expand_apply, bias_apply, bias_apply', zero_apply]
  show max (_ + _ + _) 0 = max (_ + 2 * _) 0
  rw [add_add_self]

end LowRankDense.Ref

end
-- ==== Proof.lean ====
/-
  A dense layer with a low-rank, context-modulated weight matrix: the tiled kernel against the plain reference.

  For 8192 examples p with feature rows data(p, ·) of length 2048 and context rows context(p, ·) of length 512, both
  programs compute
      out(p, q) = max (sum_k ((sum_j data(p, j) u(j, k)) * (s(k) + sum_j context(p, j) w(j, k))) * v(q, k) + bias(q) + bias(q)) 0.
  The kernel walks the examples in eight blocks of 1024 rows, keeps the small matrices whole, multiplies by the right
  factors transposed beforehand, and adds the bias as twice the bias; the reference forms the same three matrix products
  over the whole batch and adds the bias two times. On the extended reals a matrix product into zero is the plain sum
  over the contracted axis on both sides, changing the float format is the identity, and x + b + b = x + 2 * b holds for
  every extended real b (addition is associative and 2 * b = b + b also at the infinities), so the two result arrays are
  one function of the arguments; no finiteness of the inputs is used. The idealization rewrote nothing, so the kernel's
  idealized text is its own text read over the extended reals.
-/
import proofs.«181702_j73426760892514_2_alg».proof.Defs
import proofs.«181702_j73426760892514_2_alg».proof.Proof.Gen.Kernel
import proofs.«181702_j73426760892514_2_alg».proof.Proof.Gen.Kernel.Frame
import proofs.«181702_j73426760892514_2_alg».proof.Proof.Gen.KernelIdeal
import proofs.«181702_j73426760892514_2_alg».proof.Proof.Gen.KernelIdeal.Frame
import proofs.«181702_j73426760892514_2_alg».proof.Proof.Gen.KernelIdeal.Value
import proofs.«181702_j73426760892514_2_alg».proof.Proof.Gen.ReferenceIdeal
import proofs.«181702_j73426760892514_2_alg».proof.Proof.Gen.ReferenceIdeal.Run
import proofs.«181702_j73426760892514_2_alg».proof.Proof.Gen.ReferenceIdeal.Read
import proofs.«181702_j73426760892514_2_alg».proof.Proof.Gen.Pre_finite_inputs
import proofs.«181702_j73426760892514_2_alg».proof.Proof.KernelArray
import proofs.«181702_j73426760892514_2_alg».proof.Proof.RefResult
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the seven arguments both programs end with the result array at the layer's output
    function of those arguments. -/
theorem algebraic : Cert.algebraic_KernelIdeal_ReferenceIdeal := by
  intro m ρ m' ρ' _ hagree
  refine ⟨fun c => LowRankDense.Kernel.result m c, LowRankDense.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _ _ _ _ _).trans ?_
  refine (LowRankDense.Ref.result_eq _ _ _ _ _ _ _).trans ?_
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
